-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S64x128 : Shape := ⟨2, ![64, 128]⟩
abbrev S1024x768 : Shape := ⟨2, ![1024, 768]⟩
abbrev S8x128 : Shape := ⟨2, ![8, 128]⟩
abbrev S1x1 : Shape := ⟨2, ![1, 1]⟩
abbrev S768x1024 : Shape := ⟨2, ![768, 1024]⟩
abbrev S1024x1024 : Shape := ⟨2, ![1024, 1024]⟩
abbrev S1024x1 : Shape := ⟨2, ![1024, 1]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S64x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_18 : BitVec 32 := 0#32
  let v58 : BitVec 1 := Scalar.cmpi .ne v57 c0_i32_18
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  transposes_S1024x768_p1_0_S768x1024 : S1024x768.Transposes [1, 0] S768x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x768 : Shape := ⟨2, ![8192, 768]⟩
abbrev S8192x8192 : Shape := ⟨2, ![8192, 8192]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .i1⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x768_S8192x768_S8192x8192_1_1_0_0_n_n_wf : DotDims.WF S8192x768 S8192x768 S8192x8192 [1] [1] [0] [0] [] []

variable [Facts₀]

def dot_S8192x768_S8192x768_S8192x8192_1_1_0_0_n_n : DotDims S8192x768 S8192x768 S8192x8192 where
  lhsContracting := [1]
  rhsContracting := [1]
  lhsNonContracting := [0]
  rhsNonContracting := [0]
  lhsBatch := []
  rhsBatch := []
  wf := dot_S8192x768_S8192x768_S8192x8192_1_1_0_0_n_n_wf

class Facts : Prop extends Facts₀ where

variable [Facts]
-- ==== Proof.KPieces.lean ====
/-
  What each of the kernel's three control cases leaves behind, read as values: the carried scratch number after
  a grid point is the tile's sum added to what it held before (to zero at the first tile of a row of tiles), and
  at the last tile of a row the output tile is filled with copies of that number.
-/
import proofs.«161038_j57346403336666_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- One grid point's update of the carried number: the tile's sum added to what the scratch held. -/
def step (i : grid0.Coords) (x0 x1 : Vec F S1024x768 .f32) (acc : Vec F S1x1 .f32) : FVec F S1x1 .f32 :=
  k0_pay1 (k0_pay5 i x0 x1) (k0_pay7 i x0 x1) (k0_pay8 i x0 x1) (k0_pay9 i x0 x1) acc

/-- At a middle point of a row of tiles the scratch, holding `xs0`, is left at the update of `xs0`. -/
theorem sout_B (c : Dev nD) (i : grid0.Coords) (a2 : Memref sig .tc .vmem S1024x768 .f32) (h2 : a2.IsWhole) (a3 : Memref sig .tc .vmem S1024x768 .f32) (h3 : a3.IsWhole) (a4 : Memref sig .tc .vmem S8x128 .f32) (h4 : a4.IsWhole) (a5 : Memref sig .tc .vmem S1x1 .f32) (h5 : a5.IsWhole) (hc0 : ¬cond0_0 i) (hc1 : ¬cond0_1 i)
    (x0 x1 : Vec F S1024x768 .f32) (xs0 : Vec F S1x1 .f32) :
    sout0_B_0 c i a2 h2 a3 h3 a4 h4 a5 h5 hc0 hc1 x0 x1 xs0 = step i x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S1024x768) hz,
    View.ld_unit_zero (S := S1x1) hz]
  rfl

/-- At the last point of a row of tiles the scratch is left the same way. -/
theorem sout_C (c : Dev nD) (i : grid0.Coords) (a2 : Memref sig .tc .vmem S1024x768 .f32) (h2 : a2.IsWhole) (a3 : Memref sig .tc .vmem S1024x768 .f32) (h3 : a3.IsWhole) (a4 : Memref sig .tc .vmem S8x128 .f32) (h4 : a4.IsWhole) (a5 : Memref sig .tc .vmem S1x1 .f32) (h5 : a5.IsWhole) (hc0 : ¬cond0_0 i) (hc1 : cond0_1 i)
    (x0 x1 : Vec F S1024x768 .f32) (xs0 : Vec F S1x1 .f32) :
    sout0_C_0 c i a2 h2 a3 h3 a4 h4 a5 h5 hc0 hc1 x0 x1 xs0 = step i x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x768) hz,
    View.ld_unit_zero (S := S1x1) hz]
  rfl

/-- And there the output tile is left at 8 × 128 copies of the updated number. -/
theorem out_C (c : Dev nD) (i : grid0.Coords) (a2 : Memref sig .tc .vmem S1024x768 .f32) (h2 : a2.IsWhole) (a3 : Memref sig .tc .vmem S1024x768 .f32) (h3 : a3.IsWhole) (a4 : Memref sig .tc .vmem S8x128 .f32) (h4 : a4.IsWhole) (a5 : Memref sig .tc .vmem S1x1 .f32) (h5 : a5.IsWhole) (hc0 : ¬cond0_0 i) (hc1 : cond0_1 i)
    (x0 x1 : Vec F S1024x768 .f32) (xs0 : Vec F S1x1 .f32) :
    out0_C_2 c i a2 h2 a3 h3 a4 h4 a5 h5 hc0 hc1 x0 x1 xs0 = k0_pay2 (step i x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S1024x768) hz,
    View.ld_unit_zero (S := S1x1) hz]
  rfl

/-- At the first point of a row of tiles the scratch is first set to zero, then updated. -/
theorem sout_A (c : Dev nD) (i : grid0.Coords) (a2 : Memref sig .tc .vmem S1024x768 .f32) (h2 : a2.IsWhole) (a3 : Memref sig .tc .vmem S1024x768 .f32) (h3 : a3.IsWhole) (a4 : Memref sig .tc .vmem S8x128 .f32) (h4 : a4.IsWhole) (a5 : Memref sig .tc .vmem S1x1 .f32) (h5 : a5.IsWhole) (hc0 : cond0_0 i) (hc1 : ¬cond0_1 i)
    (x0 x1 : Vec F S1024x768 .f32) :
    sout0_A_0 c i a2 h2 a3 h3 a4 h4 a5 h5 hc0 hc1 x0 x1 = step i x0 x1 k0_pay3 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1024x768) hz]
  rfl

end Cert.KernelIdeal.KVal
end
-- ==== Proof.LossSpec.lean ====
/-
  The mathematics shared by both programs, on the extended reals.

  For two arrays X, Y of 8192 rows of 768 entries, the logit of the pair (R, C) is the scaled and shifted
  inner product of row R of X with row C of Y; its label is +1 on the diagonal and -1 off it; the pair's
  term is log σ(label · logit), written in the numerically stable form both programs use,
  log σ(v) = -(max 0 (-v) + log (1 + exp (-|v|))) with |v| = max v (-v).  The loss is minus the sum of all
  8192 × 8192 terms, divided by 8192.

  The blocked program sums the terms of one 1024 × 1024 tile at a time, adds the eight tile sums of a row
  of tiles into one number, writes that number 1024 times (an 8 × 128 tile of copies), sums all the copies
  and divides by 1024.  Two facts join the two arrangements, and neither needs finiteness: a sum over
  8192 = 8 · 1024 indices is a double sum (a re-indexing in a commutative monoid), and n copies of y,
  summed and divided by n, give y back on every extended real.
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-- The shape of both argument arrays. -/
abbrev SA : Shape := ⟨2, ![8192, 768]⟩

/-- The scale log 10, as the f32 both programs carry. -/
def scale : EReal := Ideal.ofBits .f32 0x40135D8E#32
/-- The shift -10. -/
def shift : EReal := Ideal.ofBits .f32 0xC1200000#32

/-- The inner product of row R of X with row C of Y. -/
def inner (X Y : SA.Idx → EReal) (R C : Fin 8192) : EReal := ∑ k : Fin 768, X (ix2 R k) * Y (ix2 C k)

/-- The logit of the pair (R, C). -/
def logit (X Y : SA.Idx → EReal) (R C : Fin 8192) : EReal := inner X Y R C * scale + shift

/-- The label: +1 on the diagonal, -1 elsewhere. -/
def label (R C : Fin 8192) : EReal := if R.val = C.val then 1 else -1

/-- log σ(v) in its stable form. -/
def logsig (v : EReal) : EReal := -(max 0 (-v) + Ideal.log1p (Ideal.exp (-(max v (-v)))))

/-- The term of the pair (R, C). -/
def pairTerm (X Y : SA.Idx → EReal) (R C : Fin 8192) : EReal := logsig (label R C * logit X Y R C)

/-- The sum of all terms. -/
def total (X Y : SA.Idx → EReal) : EReal := ∑ R : Fin 8192, ∑ C : Fin 8192, pairTerm X Y R C

/-- The loss. -/
def loss (X Y : SA.Idx → EReal) : EReal := Ideal.div (-(total X Y)) (Ideal.ofBits .f32 0x46000000#32)

/-- Row p of the i-th band of 1024 rows. -/
def band (i : Fin 8) (p : Fin 1024) : Fin 8192 := ⟨1024 * i.val + p.val, by omega⟩

/-- The sum of the terms of tile (i, j). -/
def tileSum (X Y : SA.Idx → EReal) (i j : Fin 8) : EReal :=
  ∑ p : Fin 1024, ∑ q : Fin 1024, pairTerm X Y (band i p) (band j q)

end Cert.LossSpec

end
-- ==== Proof.KTile.lean ====
/-
  One tile of the kernel read at the extended reals: the entry (p, q) of the tile's matrix product is the inner
  product of row p of the first block with row q of the second (the transposed operand read back through the
  transposition; the change of float format is the identity); the label compares the rows' global numbers
  1024·i + p and 1024·j + q, which do not wrap in 32 bits; and each entry of the tile carries the stable
  log-sigmoid of label · logit, the guard against an undefined difference never firing since no extended real
  differs from itself.
-/
import proofs.«161038_j57346403336666_1_alg».proof.Proof.Gen.KernelIdeal.Skeleton
import proofs.«161038_j57346403336666_1_alg».proof.Proof.LossSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KTile

open Cert.KernelIdeal Cert.KernelIdeal.Gen Cert.LossSpec

/-- Entry (p, q) of the tile's product: the inner product of row p of `x0` with row q of `x1`. -/
theorem tileDot (x0 x1 : FVec Ideal S1024x768 .f32) (hlt : FTy.bits .bf16 < FTy.bits .f32)
    (htr : S1024x768.Transposes [1, 0] S768x1024) (p q : Fin 1024) :
    matmul dot_S1024x768_S768x1024_S1024x1024_1_0_0_1_n_n none (truncf .bf16 x0 hlt)
      (transpose S768x1024 [1, 0] (truncf .bf16 x1 hlt) htr) (constant S1024x1024 .f32 0x00000000#32) (ix2 p q)
    = ∑ k : Fin 768, x0 (ix2 p k) * x1 (ix2 q k) := by
  refine (Ideal.matmul_constant_zero_apply dot_S1024x768_S768x1024_S1024x1024_1_0_0_1_n_n none _ _ (ix2 p q)).trans ?_
  rw [← Equiv.sum_comp (contrEquiv1 dot_S1024x768_S768x1024_S1024x1024_1_0_0_1_n_n 768 rfl rfl).symm]
  refine Finset.sum_congr rfl fun k _ => ?_
  have ck := contrEquiv1_symm_val dot_S1024x768_S768x1024_S1024x1024_1_0_0_1_n_n 768 rfl rfl k
  have l2 : dot_S1024x768_S768x1024_S1024x1024_1_0_0_1_n_n.lhsIdx (ix2 p q)
      ((contrEquiv1 dot_S1024x768_S768x1024_S1024x1024_1_0_0_1_n_n 768 rfl rfl).symm k) = ix2 p k := by
    funext ax; apply Fin.ext
    match ax with
    | ⟨0, _⟩ => simp [DotDims.lhsIdx, dot_S1024x768_S768x1024_S1024x1024_1_0_0_1_n_n]; rfl
    | ⟨1, _⟩ => simp [DotDims.lhsIdx, dot_S1024x768_S768x1024_S1024x1024_1_0_0_1_n_n]; exact ck
  have r2 : dot_S1024x768_S768x1024_S1024x1024_1_0_0_1_n_n.rhsIdx (ix2 p q)
      ((contrEquiv1 dot_S1024x768_S768x1024_S1024x1024_1_0_0_1_n_n 768 rfl rfl).symm k) = ix2 k q := by
    funext ax; apply Fin.ext
    match ax with
    | ⟨0, _⟩ => simp [DotDims.rhsIdx, dot_S1024x768_S768x1024_S1024x1024_1_0_0_1_n_n]; exact ck
    | ⟨1, _⟩ => simp [DotDims.rhsIdx, dot_S1024x768_S768x1024_S1024x1024_1_0_0_1_n_n]; rfl
  rw [l2, r2]
  show x0 (ix2 p k) * transpose S768x1024 [1, 0] x1 htr (ix2 k q) = _
  rw [transpose_ix2_apply]

/-- The f32 patterns of 1 and -1. -/
theorem one_f32 : Ideal.ofBits .f32 0x3F800000#32 = 1 := IdealRules.sign_bit.ideal_onePat .f32
theorem negOne_f32 : Ideal.ofBits .f32 0xBF800000#32 = -1 := IdealRules.sign_bit.ideal_negOnePat .f32

/-- Row p of band a, as the 32-bit word the kernel computes: no wrap below 8192. -/
theorem rowWord (a : Nat) (ha : a < 8) (h0 : S1024x1.Iotas .tc 32 [0]) (hb0 : S1024x1.Broadcasts S1024x1024) (p q : Fin 1024) :
    broadcastTo S1024x1024 (addi (broadcast S1024x1 (Scalar.muli (BitVec.ofNat 32 a) 1024#32)) (iota .tc S1024x1 32 [0] h0)) hb0 (ix2 p q)
      = BitVec.ofNat 32 (1024 * a + p.val) := by
  rw [broadcastTo_apply _ hb0 (ix2 p q) (ix2 p (0 : Fin 1)) (fun ax => by match ax with | ⟨0, _⟩ => rfl | ⟨1, _⟩ => rfl)]
  show IntOp.addi (Scalar.muli (BitVec.ofNat 32 a) 1024#32) (iota .tc S1024x1 32 [0] h0 (ix2 p 0)) = _
  rw [iota_single_apply]
  show BitVec.ofNat 32 a * 1024#32 + BitVec.ofNat 32 p.val = _
  have hp := p.isLt
  bv_omega

/-- Column q of band b likewise. -/
theorem colWord (b : Nat) (hb : b < 8) (h1 : S1x1024.Iotas .tc 32 [1]) (hb1 : S1x1024.Broadcasts S1024x1024) (p q : Fin 1024) :
    broadcastTo S1024x1024 (addi (broadcast S1x1024 (Scalar.muli (BitVec.ofNat 32 b) 1024#32)) (iota .tc S1x1024 32 [1] h1)) hb1 (ix2 p q)
      = BitVec.ofNat 32 (1024 * b + q.val) := by
  rw [broadcastTo_apply _ hb1 (ix2 p q) (ix2 (0 : Fin 1) q) (fun ax => by match ax with | ⟨0, _⟩ => rfl | ⟨1, _⟩ => rfl)]
  show IntOp.addi (Scalar.muli (BitVec.ofNat 32 b) 1024#32) (iota .tc S1x1024 32 [1] h1 (ix2 0 q)) = _
  rw [iota_single_apply]
  show BitVec.ofNat 32 b * 1024#32 + BitVec.ofNat 32 q.val = _
  have hq := q.isLt
  bv_omega

/-- Comparing two such words is comparing the numbers. -/
theorem cmpWords (n1 n2 : Nat) (h1 : n1 < 8192) (h2 : n2 < 8192) (A B : EReal) :
    Scalar.select (IntOp.cmpi .eq (BitVec.ofNat 32 n1) (BitVec.ofNat 32 n2)) A B = if n1 = n2 then A else B := by
  have hc : IntOp.cmpi .eq (BitVec.ofNat 32 n1) (BitVec.ofNat 32 n2)
      = BitVec.ofBool (BitVec.ofNat 32 n1 == BitVec.ofNat 32 n2) := rfl
  rw [hc]
  unfold Scalar.select
  by_cases h : n1 = n2
  · subst h; simp
  · have hne : BitVec.ofNat 32 n1 ≠ BitVec.ofNat 32 n2 := by
      intro he
      have := congrArg BitVec.toNat he
      simp at this
      omega
    have hb : (BitVec.ofNat 32 n1 == BitVec.ofNat 32 n2) = false := beq_eq_false_iff_ne.mpr hne
    rw [hb, if_neg h]
    exact if_neg (by decide)

/-- The label of the pair (band a, row p) against (band b, row q). -/
def lbl (a b : Nat) (p q : Fin 1024) : EReal := if 1024 * a + p.val = 1024 * b + q.val then 1 else -1

theorem tileLabel (a b : Nat) (ha : a < 8) (hb : b < 8) (h0 : S1024x1.Iotas .tc 32 [0]) (h1 : S1x1024.Iotas .tc 32 [1])
    (hb0 : S1024x1.Broadcasts S1024x1024) (hb1 : S1x1024.Broadcasts S1024x1024) (p q : Fin 1024) :
    (select (cmpi .eq
        (broadcastTo S1024x1024 (addi (broadcast S1024x1 (Scalar.muli (BitVec.ofNat 32 a) 1024#32)) (iota .tc S1024x1 32 [0] h0)) hb0)
        (broadcastTo S1024x1024 (addi (broadcast S1x1024 (Scalar.muli (BitVec.ofNat 32 b) 1024#32)) (iota .tc S1x1024 32 [1] h1)) hb1))
      (broadcast S1024x1024 (Scalar.ofBits (F := Ideal) .f32 0x3F800000#32))
      (broadcast S1024x1024 (Scalar.ofBits (F := Ideal) .f32 0xBF800000#32)) : FVec Ideal S1024x1024 .f32) (ix2 p q)
      = lbl a b p q := by
  show Scalar.select (IntOp.cmpi .eq
      (broadcastTo S1024x1024 (addi (broadcast S1024x1 (Scalar.muli (BitVec.ofNat 32 a) 1024#32)) (iota .tc S1024x1 32 [0] h0)) hb0 (ix2 p q))
      (broadcastTo S1024x1024 (addi (broadcast S1x1024 (Scalar.muli (BitVec.ofNat 32 b) 1024#32)) (iota .tc S1x1024 32 [1] h1)) hb1 (ix2 p q)))
      (Ideal.ofBits .f32 0x3F800000#32) (Ideal.ofBits .f32 0xBF800000#32) = _
  rw [rowWord a ha, colWord b hb, one_f32, negOne_f32]
  have hp := p.isLt
  have hq := q.isLt
  exact cmpWords _ _ (by omega) (by omega) 1 (-1)

/-- Minus label · logit at (p, q): the first payload. -/
theorem pay4_apply (i : grid0.Coords) (x0 x1 : FVec Ideal S1024x768 .f32) (p q : Fin 1024) :
    k0_pay4 (F := Ideal) i x0 x1 (ix2 p q)
      = 0 - lbl (i 0).val (i 1).val p q * ((∑ k : Fin 768, x0 (ix2 p k) * x1 (ix2 q k)) * scale + shift) := by
  unfold k0_pay4
  dsimp only
  have e : ∀ (A B C D E A' B' C' : EReal), A = A' → B = B' → C = C' → A - B * (C * D + E) = A' - B' * (C' * D + E) := by
    intros; subst_vars; rfl
  have h0 : (i 0).val < 8 := (i 0).isLt
  have h1 : (i 1).val < 8 := (i 1).isLt
  exact e _ _ _ _ _ _ _ _ Ideal.ofBits_zero_f32 (tileLabel (i 0).val (i 1).val h0 h1 _ _ _ _ p q) (tileDot x0 x1 _ _ p q)

/-- The kernel's spelling of the stable log-sigmoid, from n = 0 - v: the guard compares a number with itself and
    never fires; 0 - x is -x and -(-v) is v on every extended real. -/
theorem logsig_of_neg (v : EReal) :
    (0 : EReal) - Scalar.select (Ideal.cmp .one (0 - (0 - v)) (0 - (0 - v))) (0 + (0 - v))
      (max 0 (0 - v) + Ideal.log1p (Ideal.exp (0 - max (0 - (0 - v)) (-(0 - (0 - v)))))) = logsig v := by
  have hc : Ideal.cmp .one (0 - (0 - v)) (0 - (0 - v)) = 0#1 := by
    unfold Ideal.cmp
    simp
  rw [hc, select_zero]
  have hz : ∀ x : EReal, 0 - x = -x := fun x => by rw [sub_eq_add_neg, zero_add]
  simp only [hz, neg_neg]
  rfl

/-- Entry (p, q) of the tile: the stable log-sigmoid of label · logit. -/
theorem entry_apply (i : grid0.Coords) (x0 x1 : FVec Ideal S1024x768 .f32) (p q : Fin 1024) :
    (subf (broadcast S1024x1024 (Scalar.ofBits (F := Ideal) .f32 0x00000000#32))
        (select (k0_pay7 (F := Ideal) i x0 x1) (k0_pay8 i x0 x1) (addf (k0_pay5 i x0 x1) (log1p (k0_pay9 i x0 x1))))
        : FVec Ideal S1024x1024 .f32) (ix2 p q)
      = logsig (lbl (i 0).val (i 1).val p q * ((∑ k : Fin 768, x0 (ix2 p k) * x1 (ix2 q k)) * scale + shift)) := by
  have hN := pay4_apply i x0 x1 p q
  unfold k0_pay5 k0_pay7 k0_pay8 k0_pay9 k0_pay6
  dsimp only
  generalize k0_pay4 (F := Ideal) i x0 x1 = N at hN ⊢
  show Ideal.ofBits .f32 0x00000000#32 - Scalar.select
      (Ideal.cmp .one (Ideal.ofBits .f32 0x00000000#32 - N (ix2 p q)) (Ideal.ofBits .f32 0x00000000#32 - N (ix2 p q)))
      (Ideal.ofBits .f32 0x00000000#32 + N (ix2 p q))
      (max (Ideal.ofBits .f32 0x00000000#32) (N (ix2 p q))
        + Ideal.log1p (Ideal.exp (Ideal.ofBits .f32 0x00000000#32
            - max (Ideal.ofBits .f32 0x00000000#32 - N (ix2 p q)) (-(Ideal.ofBits .f32 0x00000000#32 - N (ix2 p q)))))) = _
  rw [hN, Ideal.ofBits_zero_f32]
  exact logsig_of_neg _

/-- The sum of a reshaped array is the sum of the array: a reshape matches the indices one to one. -/
theorem sum_shapeCast {s t : Shape} (x : s.Idx → EReal) (h : s.ShapeCasts t) : ∑ j, shapeCast t x h j = ∑ k, x k := by
  show ∑ j, x (Shape.reshapeEquiv _ j) = _
  exact Equiv.sum_comp (Shape.reshapeEquiv _) x

/-- The sum of the tile's 1024 × 1024 entries. -/
def tileTotal (i : grid0.Coords) (x0 x1 : FVec Ideal S1024x768 .f32) : EReal :=
  ∑ p : Fin 1024, ∑ q : Fin 1024,
    logsig (lbl (i 0).val (i 1).val p q * ((∑ k : Fin 768, x0 (ix2 p k) * x1 (ix2 q k)) * scale + shift))

/-- The second payload: what the scratch held, plus the tile's total. -/
theorem pay1_apply (i : grid0.Coords) (x0 x1 : FVec Ideal S1024x768 .f32) (acc : FVec Ideal S1x1 .f32) (y : S1x1.Idx) :
    k0_pay1 (F := Ideal) (k0_pay5 i x0 x1) (k0_pay7 (F := Ideal) i x0 x1) (k0_pay8 i x0 x1) (k0_pay9 i x0 x1) acc y
      = acc y + tileTotal i x0 x1 := by
  unfold k0_pay1
  dsimp only
  refine (congrFun (shapeCast_self _ _) y).trans ?_
  refine congrArg (acc y + ·) ?_
  refine (Ideal.multiReduction_add_total (φ := .f32) _ 0x00000000#32 _ (fun b => by fin_cases b; rfl) (.inl rfl) rfl _).trans ?_
  refine (sum_shapeCast _ _).trans ?_
  rw [sum_idx2]
  exact Finset.sum_congr rfl fun p _ => Finset.sum_congr rfl fun q _ => entry_apply i x0 x1 p q

end Cert.KernelIdeal.KTile
end
-- ==== Proof.KBlocks.lean ====
/-
  Where a grid point's blocks sit in the arrays: point t is tile (t / 8, t % 8); its first input block is rows
  1024·(t/8) … of the first array, its second input block rows 1024·(t%8) … of the second, and its output block
  rows 8·(t/8) … of the 64 × 128 result.  A block's element sits at block index × block size + its coordinate.
-/
import proofs.«161038_j57346403336666_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KBlocks

open Cert.KernelIdeal Cert.KernelIdeal.Gen

variable {F : FTy → Type} [FloatOps F]
variable (m : (ℓ : Loc nD τ sig) → Buf (Elt F) ℓ)

/-- The grid's coordinates and the three index maps, decided once over the 64 points. -/
theorem idx_facts : ∀ t : Fin cfg0.N,
    (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The first input block at point t, entry (p, k): row 1024·(t/8) + p of the first argument. -/
theorem iblk0_apply (c : Dev nD) (t : Fin cfg0.N) (p : Fin 1024) (k : Fin 768) (R : Fin 8192)
    (hR : R.val = 1024 * (t.val / 8) + p.val) :
    (iblk m c 0 t : Vec F S1024x768 .f32) (ix2 p k) = m ((c : Thread nD τ).loc main_arg0) (ix2 R k) := by
  obtain ⟨-, -, h0, h1, -, -, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * p.val = R.val; rw [h0, hR]; omega
  | ⟨1, _⟩ => show win0_0.index t 1 * 768 + 1 * k.val = k.val; rw [h1]; omega

/-- The second input block at point t, entry (q, k): row 1024·(t%8) + q of the second argument. -/
theorem iblk1_apply (c : Dev nD) (t : Fin cfg0.N) (q : Fin 1024) (k : Fin 768) (C : Fin 8192)
    (hC : C.val = 1024 * (t.val % 8) + q.val) :
    (iblk m c 1 t : Vec F S1024x768 .f32) (ix2 q k) = m ((c : Thread nD τ).loc main_arg1) (ix2 C k) := by
  obtain ⟨-, -, -, -, h0, h1, -, -⟩ := idx_facts t
  unfold iblk
  rw [View.read_apply]
  show V m c main_arg1 _ = m (c.tc.loc main_arg1) _
  unfold V
  congr 1
  funext a
  apply Fin.ext
  match a with
  | ⟨0, _⟩ => show win0_1.index t 0 * 1024 + 1 * q.val = C.val; rw [h0, hC]; omega
  | ⟨1, _⟩ => show win0_1.index t 1 * 768 + 1 * k.val = k.val; rw [h1]; omega

end Cert.KernelIdeal.KBlocks

end
-- ==== Proof.KAccum.lean ====
/-
  The carried number, point by point.  Point t is tile (t / 8, t % 8).  After point t the scratch holds the sum of
  the tiles (t/8, 0) … (t/8, t%8): it restarts from zero at the first tile of each row of tiles and grows by one
  tile's total at every point (an induction on the point, never an enumeration of the grid).  At the last tile of
  a row the output tile holds copies of the row's whole sum.
-/
import proofs.«161038_j57346403336666_1_alg».proof.Proof.KPieces
import proofs.«161038_j57346403336666_1_alg».proof.Proof.KTile
import proofs.«161038_j57346403336666_1_alg».proof.Proof.KBlocks

noncomputable section

open Idealize.ShloMosaic Idealize.ShloMosaic.TcCoe Idealize.SL.Sem Idealize.ShloMosaic.ValueIdx
open Idealize.ShloMosaic.Pipeline (Dat)

namespace Cert.KernelIdeal.KAccum

open Cert.KernelIdeal Cert.KernelIdeal.Gen Cert.LossSpec
open Cert.KernelIdeal.KVal Cert.KernelIdeal.KTile Cert.KernelIdeal.KBlocks

variable (m : (ℓ : Loc nD τ sig) → Buf (Elt Ideal) ℓ)

/-- The two argument arrays as the kernel's device holds them. -/
abbrev argX (c : Dev nD) : SA.Idx → EReal := m ((c : Thread nD τ).loc main_arg0)
abbrev argY (c : Dev nD) : SA.Idx → EReal := m ((c : Thread nD τ).loc main_arg1)

/-- A tile's total over blocks that are bands I and J of the two arrays is the specification's tile sum at (I, J). -/
theorem tileTotal_of_bands (c : Dev nD) (t : Fin cfg0.N) (I J : Fin 8) (hI : I.val = t.val / 8) (hJ : J.val = t.val % 8)
    (x0 x1 : FVec Ideal S1024x768 .f32)
    (e0 : ∀ (p : Fin 1024) (k : Fin 768), x0 (ix2 p k) = argX m c (ix2 (band I p) k))
    (e1 : ∀ (q : Fin 1024) (k : Fin 768), x1 (ix2 q k) = argY m c (ix2 (band J q) k)) :
    tileTotal (grid0.coords t) x0 x1 = tileSum (argX m c) (argY m c) I J := by
  obtain ⟨hc0, hc1, -⟩ := idx_facts t
  unfold tileTotal tileSum
  refine Finset.sum_congr rfl fun p _ => Finset.sum_congr rfl fun q _ => ?_
  unfold pairTerm logit LossSpec.inner
  have hl : lbl (grid0.coords t 0).val (grid0.coords t 1).val p q = label (band I p) (band J q) := by
    unfold lbl label band
    rw [hc0, hc1, ← hI, ← hJ]
  have hs : (∑ k : Fin 768, x0 (ix2 p k) * x1 (ix2 q k))
      = ∑ k : Fin 768, argX m c (ix2 (band I p) k) * argY m c (ix2 (band J q) k) :=
    Finset.sum_congr rfl fun k _ => by rw [e0, e1]
  rw [hl, hs]

/-- The total of the tile at point t is the specification's tile sum at (t / 8, t % 8). -/
theorem tileTotal_eq (c : Dev nD) (t : Fin cfg0.N) (I J : Fin 8) (hI : I.val = t.val / 8) (hJ : J.val = t.val % 8) :
    tileTotal (grid0.coords t) (iblk m c 0 t) (iblk m c 1 t) = tileSum (argX m c) (argY m c) I J :=
  tileTotal_of_bands m c t I J hI hJ (iblk m c 0 t) (iblk m c 1 t)
    (fun p k => iblk0_apply m c t p k (band I p) (by show 1024 * I.val + p.val = 1024 * (t.val / 8) + p.val; rw [hI]))
    (fun q k => iblk1_apply m c t q k (band J q) (by show 1024 * J.val + q.val = 1024 * (t.val % 8) + q.val; rw [hJ]))

/-- The tile total at position n of the grid's order (zero past the grid). -/
def T (c : Dev nD) (n : ℕ) : EReal :=
  if h : n < cfg0.N then tileTotal (grid0.coords ⟨n, h⟩) (iblk m c 0 ⟨n, h⟩) (iblk m c 1 ⟨n, h⟩) else 0

theorem T_lt (c : Dev nD) (n : ℕ) (h : n < cfg0.N) :
    T m c n = tileTotal (grid0.coords ⟨n, h⟩) (iblk m c 0 ⟨n, h⟩) (iblk m c 1 ⟨n, h⟩) := dif_pos h

/-- The running sum: restarted at the first tile of each row of tiles. -/
def accAt (c : Dev nD) : ℕ → EReal
  | 0 => 0 + T m c 0
  | n + 1 => if (n + 1) % 8 = 0 then 0 + T m c (n + 1) else accAt c n + T m c (n + 1)

/-- The zero the scratch is reset to. -/
theorem pay3_apply (y : S1x1.Idx) : k0_pay3 (F := Ideal) y = 0 := by
  show Ideal.ofBits .f32 0x00000000#32 = 0
  exact Ideal.ofBits_zero_f32

/-- After point n the scratch holds the running sum. -/
theorem scratch_eq (c : Dev nD) : ∀ (n : ℕ) (h : n < cfg0.N), (outsAt0 m c n h).2 = fun _ => accAt m c n
  | 0, h => by
    rw [outsAt0_A m c ⟨0, h⟩ rfl (by show ¬0 % 8 = 7; decide)]
    dsimp only
    rw [sout_A]
    funext y
    unfold step
    rw [pay1_apply, pay3_apply, ← T_lt m c 0 h]
    rfl
  | n + 1, h => by
    have hN : cfg0.N = 64 := N_0
    have ih := scratch_eq c n (Nat.lt_of_succ_lt h)
    by_cases h0 : (n + 1) % 8 = 0
    · have h1 : ¬(n + 1) % 8 = 7 := by omega
      rw [outsAt0_A m c ⟨n + 1, h⟩ h0 h1]
      dsimp only
      rw [sout_A]
      funext y
      unfold step
      rw [pay1_apply, pay3_apply, ← T_lt m c (n + 1) h]
      show _ = accAt m c (n + 1)
      rw [accAt, if_pos h0]
    · by_cases h1 : (n + 1) % 8 = 7
      · rw [outsAt0_C m c ⟨n + 1, h⟩ h0 h1]
        dsimp only
        rw [sout_C]
        funext y
        unfold step
        rw [pay1_apply, ← T_lt m c (n + 1) h]
        show (outsAt0 m c n _).2 y + _ = accAt m c (n + 1)
        rw [ih, accAt, if_neg h0]
      · rw [outsAt0_B m c ⟨n + 1, h⟩ h0 h1]
        dsimp only
        rw [sout_B]
        funext y
        unfold step
        rw [pay1_apply, ← T_lt m c (n + 1) h]
        show (outsAt0 m c n _).2 y + _ = accAt m c (n + 1)
        rw [ih, accAt, if_neg h0]

/-- Copies of one number, read anywhere, are that number. -/
theorem pay2_const (a : EReal) : k0_pay2 (F := Ideal) (fun _ => a) = fun _ => a := rfl

/-- At the last tile of a row of tiles the output tile holds copies of the running sum. -/
theorem out_eq (c : Dev nD) (t : Fin cfg0.N) (h1 : t.val % 8 = 7) :
    (outsAt0 m c t.val t.isLt).1 = fun _ => accAt m c t.val := by
  have h0 : ¬t.val % 8 = 0 := by omega
  have hs := scratch_eq m c t.val t.isLt
  rw [outsAt0_C m c t h0 h1] at hs ⊢
  dsimp only at hs ⊢
  rw [sout_C] at hs
  rw [out_C, hs]
  exact pay2_const _

end Cert.KernelIdeal.KAccum

end
-- ==== Proof.LossAlgebra.lean ====
/-
  The algebra that joins the blocked arrangement of the loss to the plain one, on the extended reals.

  The plain loss sums the 8192 × 8192 pair terms.  The blocked arrangement sums them tile by tile (a tile is
  1024 rows by 1024 columns, 8 × 8 tiles in all), adds the eight tile sums of each row of tiles, writes that
  number 8 · 128 times over (64 rows of 128 copies, row u carrying the row of tiles u / 8), sums all the
  copies and divides by 1024.  Three facts make the two equal, none of which needs a finite input:
  a sum over 8192 = 8 · 1024 indices is a double sum over (tile, position in the tile), and finite sums
  commute; summing 8 · 128 = 1024 copies of a number is taking its 1024-fold multiple, which distributes over
  a finite sum in any commutative monoid; and the 1024-fold multiple of an extended real, divided by 1024, is
  that extended real again (both infinities included: 1024 · (±∞) = ±∞ and ±∞ / 1024 = ±∞).
-/
import proofs.«161038_j57346403336666_1_alg».proof.Proof.LossSpec

noncomputable section

namespace Cert.LossAlgebra

open Cert.LossSpec Idealize.ShloMosaic

/-! ## 8192 indices as 8 bands of 1024 -/

/-- A row number is a band and a position in the band. -/
def bandEquiv : Fin 8 × Fin 1024 ≃ Fin 8192 where
  toFun x := band x.1 x.2
  invFun R := (⟨R.val / 1024, by omega⟩, ⟨R.val % 1024, by omega⟩)
  left_inv := by
    rintro ⟨i, p⟩
    refine Prod.ext (Fin.ext ?_) (Fin.ext ?_)
    · show (1024 * i.val + p.val) / 1024 = i.val
      omega
    · show (1024 * i.val + p.val) % 1024 = p.val
      omega
  right_inv := by
    intro R
    refine Fin.ext ?_
    show 1024 * (R.val / 1024) + R.val % 1024 = R.val
    omega

/-- So a sum over the 8192 rows is the double sum over bands and positions. -/
theorem sum_band {M : Type*} [AddCommMonoid M] (f : Fin 8192 → M) :
    ∑ R, f R = ∑ i : Fin 8, ∑ p : Fin 1024, f (band i p) := by
  rw [← Equiv.sum_comp bandEquiv f, Fintype.sum_prod_type]
  rfl

/-- The sum of all pair terms is the sum of the 8 × 8 tile sums. -/
theorem total_eq_tiles (X Y : SA.Idx → EReal) :
    total X Y = ∑ i : Fin 8, ∑ j : Fin 8, tileSum X Y i j := by
  unfold total tileSum
  rw [sum_band]
  refine Finset.sum_congr rfl fun i _ => ?_
  refine (Finset.sum_congr rfl fun p _ => sum_band (fun C => pairTerm X Y (band i p) C)).trans ?_
  exact Finset.sum_comm

/-! ## 64 rows of 128 copies -/

/-- A row of copies is a row of tiles and one of its eight rows. -/
def rowEquiv : Fin 8 × Fin 8 ≃ Fin 64 where
  toFun x := ⟨8 * x.1.val + x.2.val, by omega⟩
  invFun u := (⟨u.val / 8, by omega⟩, ⟨u.val % 8, by omega⟩)
  left_inv := by
    rintro ⟨i, r⟩
    refine Prod.ext (Fin.ext ?_) (Fin.ext ?_)
    · show (8 * i.val + r.val) / 8 = i.val
      omega
    · show (8 * i.val + r.val) % 8 = r.val
      omega
  right_inv := by
    intro u
    refine Fin.ext ?_
    show 8 * (u.val / 8) + u.val % 8 = u.val
    omega

/-- Summing, over 64 rows of 128 copies, the number of the row of tiles u / 8 gives 1024 times the sum of
    the eight numbers: in any commutative monoid. -/
theorem sum_copies {M : Type*} [AddCommMonoid M] (A : Fin 8 → M) :
    ∑ u : Fin 64, ∑ _v : Fin 128, A ⟨u.val / 8, by omega⟩ = 1024 • ∑ i : Fin 8, A i := by
  have h128 : ∀ u : Fin 64, ∑ _v : Fin 128, A ⟨u.val / 8, by omega⟩ = 128 • A ⟨u.val / 8, by omega⟩ := fun u => by
    rw [Finset.sum_const, Finset.card_univ, Fintype.card_fin]
  rw [Finset.sum_congr rfl fun u _ => h128 u,
    ← Equiv.sum_comp rowEquiv (fun u : Fin 64 => 128 • A ⟨u.val / 8, by omega⟩), Fintype.sum_prod_type]
  have hrow : ∀ (i r : Fin 8), (⟨(rowEquiv (i, r)).val / 8, by omega⟩ : Fin 8) = i := fun i r =>
    Fin.ext (by show (8 * i.val + r.val) / 8 = i.val; omega)
  rw [Finset.sum_congr rfl fun i _ => Finset.sum_congr rfl fun r _ => by rw [hrow i r]]
  rw [Finset.sum_congr rfl fun i _ => (by
      rw [Finset.sum_const, Finset.card_univ, Fintype.card_fin, smul_smul] :
      ∑ _r : Fin 8, 128 • A i = (8 * 128) • A i)]
  rw [← Finset.smul_sum]

/-- The copies' sum is 1024 times the sum of all pair terms. -/
theorem copies_eq (X Y : SA.Idx → EReal) :
    ∑ u : Fin 64, ∑ _v : Fin 128, ∑ j : Fin 8, tileSum X Y ⟨u.val / 8, by omega⟩ j = 1024 • total X Y := by
  rw [total_eq_tiles]
  exact sum_copies fun i => ∑ j : Fin 8, tileSum X Y i j

/-! ## Dividing the 1024-fold multiple by 1024 -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The 1024-fold multiple of an extended real, times 1/1024, is that extended real: the infinities are
    fixed by both steps, and on a real it is arithmetic. -/
theorem nsmul_mul_inv (y : EReal) : (1024 • y) * ((1 / 1024 : ℝ) : EReal) = y := by
  rw [EReal.nsmul_eq_mul]
  have hc : ((1024 : ℕ) : EReal) = ((1024 : ℝ) : EReal) := by norm_cast
  rw [hc]
  induction y using EReal.rec with
  | bot => rw [EReal.coe_mul_bot_of_pos (by norm_num), EReal.bot_mul_coe_of_pos (by norm_num)]
  | coe r =>
    rw [← EReal.coe_mul, ← EReal.coe_mul]
    refine congrArg _ ?_
    field_simp
  | top => rw [EReal.coe_mul_top_of_pos (by norm_num), EReal.top_mul_coe_of_pos (by norm_num)]

/-! ## The blocked arrangement is the loss -/

/-- The blocked arrangement of the loss — zero plus the sum of all the copies, divided by 1024, negated and
    divided by 8192 — is the loss. -/
theorem kernel_loss (X Y : Cert.LossSpec.SA.Idx → EReal) :
    Ideal.div (-(Ideal.div (Ideal.ofBits .f32 0x00000000#32
          + ∑ u : Fin 64, ∑ v : Fin 128, ∑ j : Fin 8, Cert.LossSpec.tileSum X Y ⟨u.val / 8, by omega⟩ j)
        (Ideal.ofBits .f32 0x44800000#32))) (Ideal.ofBits .f32 0x46000000#32)
      = Cert.LossSpec.loss X Y := by
  unfold loss
  refine congrArg (fun t => Ideal.div (-t) (Ideal.ofBits .f32 0x46000000#32)) ?_
  rw [Ideal.ofBits_zero_f32, zero_add, ofBits_1024, Ideal.div_coe (by norm_num : (1024 : ℝ) ≠ 0), copies_eq X Y]
  exact nsmul_mul_inv _

end Cert.LossAlgebra

end
-- ==== Proof.KFinal.lean ====
/-
  The kernel's result array and result number.  A row of tiles' running sum, at its last tile, is the sum of the
  row's eight tile sums; the output block written back there is rows 8·i … 8·i + 7 of the 64 × 128 array, all
  128 lanes, so the array ends holding, at (u, v), the sum of row-of-tiles u / 8; the eight write-backs cover the
  array.  The host lines after the kernel then add up all 64 × 128 entries from zero, divide by 1024, negate and
  divide by 8192.
-/
import proofs.«161038_j57346403336666_1_alg».proof.Proof.KAccum
import proofs.«161038_j57346403336666_1_alg».proof.Proof.LossAlgebra
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.LossSpec
open Cert.KernelIdeal.KVal Cert.KernelIdeal.KTile Cert.KernelIdeal.KBlocks Cert.KernelIdeal.KAccum

variable (m : (ℓ : Loc nD τ sig) → Buf (Elt Ideal) ℓ) (ρ : Dev nD → PrngReg)

/-- Within row of tiles i, after its tile j the running sum is the sum of the tiles 0 … j. -/
theorem accAt_row (c : Dev nD) (i : ℕ) (hi : i < 8) :
    ∀ (j : ℕ), j < 8 → accAt m c (8 * i + j) = ∑ j' ∈ Finset.range (j + 1), T m c (8 * i + j')
  | 0, _ => by
    rw [Finset.sum_range_one]
    cases i with
    | zero => show 0 + T m c 0 = _; rw [zero_add]
    | succ i' =>
      rw [show 8 * (i' + 1) + 0 = (8 * i' + 7) + 1 by omega, accAt, if_pos (by omega), zero_add]
  | j + 1, hj => by
    rw [show 8 * i + (j + 1) = (8 * i + j) + 1 by omega, accAt, if_neg (by omega), accAt_row c i hi j (by omega),
      Finset.sum_range_succ (fun j' => T m c (8 * i + j')) (j + 1)]
    rfl

/-- At the last tile of row of tiles I the running sum is the row's eight tile sums. -/
theorem rowSum (c : Dev nD) (t : Fin cfg0.N) (h7 : t.val % 8 = 7) (I : Fin 8) (hI : I.val = t.val / 8) :
    accAt m c t.val = ∑ j : Fin 8, tileSum (argX m c) (argY m c) I j := by
  have hN : cfg0.N = 64 := N_0
  have ht := t.isLt
  have e : t.val = 8 * I.val + 7 := by omega
  rw [e, accAt_row m c I.val I.isLt 7 (by omega), Finset.sum_range]
  refine Finset.sum_congr rfl fun j _ => ?_
  have hlt : 8 * I.val + j.val < cfg0.N := by have := j.isLt; have := I.isLt; omega
  rw [T_lt m c _ hlt]
  exact tileTotal_eq m c ⟨8 * I.val + j.val, hlt⟩ I j (by show I.val = (8 * I.val + j.val) / 8; have := j.isLt; omega)
    (by show j.val = (8 * I.val + j.val) % 8; have := j.isLt; omega)

/-- The row of tiles an output row belongs to. -/
def rowOf (u : ℕ) (h : u < 64) : Fin 8 := ⟨u / 8, by omega⟩

/-- The result array: at (u, v), the sum of row-of-tiles u / 8. -/
def outFn (c : Dev nD) : S64x128.Idx → EReal :=
  fun y => ∑ j : Fin 8, tileSum (argX m c) (argY m c) (rowOf (y 0).val (y 0).isLt) j

/-- The same, as the contents of the result buffer. -/
def outArr (c : Dev nD) : Buf (Elt Ideal) ((c : Thread nD τ).loc main_v0) := outFn m c

/-- The output window's blocks are whole: 8 rows, 128 lanes, at every point. -/
theorem xsize_facts : ∀ t : Fin cfg0.N, win0_2.xsize (grid0.coords t) (0 : Fin 2) = 8 ∧ win0_2.xsize (grid0.coords t) (1 : Fin 2) = 128 :=
  (by decide +kernel : ∀ t : Fin grid0.N, _)

/-- What a write-back writes is its block of the result array. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  obtain ⟨-, -, -, -, -, -, h20, h21⟩ := idx_facts t
  obtain ⟨hx0, hx1⟩ := xsize_facts t
  show (cfg0.win 2).cut (grid0.coords t) ((dats m 0 c).after 2 t) = _
  rw [after0_2, out_eq m c t h7]
  funext y
  rw [View.read_apply]
  show accAt m c t.val = outArr m c (((cfg0.win 2).blk t).view.emb y)
  unfold outArr outFn
  refine rowSum m c t h7 _ ?_
  show (win0_2.index t 0 * 8 + 1 * (y 0).val) / 8 = t.val / 8
  have hy : (y 0).val < win0_2.xsize (grid0.coords t) 0 := (y 0).isLt
  rw [hx0] at hy
  rw [h20]
  omega

/-- Every entry of the result array lies in the block written back at the last tile of its row of tiles. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 64 := N_0
  have h0 : (i 0 : Nat) < 64 := (i 0).isLt
  have h1 : (i 1 : Nat) < 128 := (i 1).isLt
  have hlt : 8 * ((i 0 : Nat) / 8) + 7 < cfg0.N := by omega
  refine ⟨⟨8 * ((i 0 : Nat) / 8) + 7, hlt⟩, (flush0_2 _).mpr (by show (8 * ((i 0 : Nat) / 8) + 7) % 8 = 7; omega), ?_⟩
  obtain ⟨-, -, -, -, -, -, h20, h21⟩ := idx_facts ⟨8 * ((i 0 : Nat) / 8) + 7, hlt⟩
  obtain ⟨hx0, hx1⟩ := xsize_facts ⟨8 * ((i 0 : Nat) / 8) + 7, hlt⟩
  show i ∈ ((View.whole main_v0).slice (win0_2.rect ⟨8 * ((i 0 : Nat) / 8) + 7, hlt⟩)).set
  rw [View.set_slice_whole, Rect.mem_set_unit]
  intro a
  match a with
  | ⟨0, _⟩ =>
    show win0_2.index ⟨8 * ((i 0 : Nat) / 8) + 7, hlt⟩ 0 * 8 ≤ (i 0 : Nat)
      ∧ (i 0 : Nat) < win0_2.index ⟨8 * ((i 0 : Nat) / 8) + 7, hlt⟩ 0 * 8 + win0_2.xsize (grid0.coords ⟨8 * ((i 0 : Nat) / 8) + 7, hlt⟩) 0
    rw [h20, hx0]
    show (8 * ((i 0 : Nat) / 8) + 7) / 8 * 8 ≤ (i 0 : Nat) ∧ (i 0 : Nat) < (8 * ((i 0 : Nat) / 8) + 7) / 8 * 8 + 8
    omega
  | ⟨1, _⟩ =>
    show win0_2.index ⟨8 * ((i 0 : Nat) / 8) + 7, hlt⟩ 1 * 128 ≤ (i 1 : Nat)
      ∧ (i 1 : Nat) < win0_2.index ⟨8 * ((i 0 : Nat) / 8) + 7, hlt⟩ 1 * 128 + win0_2.xsize (grid0.coords ⟨8 * ((i 0 : Nat) / 8) + 7, hlt⟩) 1
    rw [h21, hx1]
    omega

/-- So the result array ends holding `outArr`. -/
theorem final_o (c : Dev nD) : (dats m 0 c).arrAt 2 cfg0.N = outArr m c :=
  (dats m 0 c).arrAt_eq_of_cover 2 (outArr m c) (flushed_eq m c) (cover c)

/-- The host lines after the kernel, applied to the result array: the loss. -/
theorem tail_eq (c : Dev nD) :
    Pipeline.afterTail₀ cfgs (dats m) 0 (V0 m) [hostOps1] c main_v4
      = (fun _ => loss (argX m c) (argY m c) : S_.Idx → EReal) := by
  unfold Pipeline.afterTail₀
  simp only [List.flatten_cons, List.flatten_nil, List.append_nil]
  after_results
  have hA : Pipeline.withArrays (cfgs 0).spec c (V0 m c) (fun w => (dats m 0 c).arrAt w (cfgs 0).N) (Proc.devRef .tc main_v0)
      = outArr m c :=
    (Pipeline.withArrays_arr spec0 launch0.win.arr_inj c _ _ 2).trans (final_o m c)
  rw [hA]
  funext y
  have hsum : Host.reduceAdd (F := Ideal) (outFn m c) (constant (F := Ideal) S_ .f32 0x00000000#32) reducesTo_S64x128_S_d0_1 h_S_ y
      = Ideal.ofBits .f32 0x00000000#32
        + ∑ u : Fin 64, ∑ v : Fin 128, ∑ j : Fin 8, tileSum (argX m c) (argY m c) ⟨u.val / 8, by omega⟩ j := by
    refine (Ideal.hostReduceAdd_total _ (fun b => b.elim0) (outFn m c) _ y).trans ?_
    refine congrArg (Ideal.ofBits .f32 0x00000000#32 + ·) ?_
    refine (sum_idx2 (outFn m c)).trans ?_
    exact Finset.sum_congr rfl fun u _ => Finset.sum_congr rfl fun v _ => rfl
  show Ideal.div (-(Ideal.div (Host.reduceAdd (F := Ideal) (outFn m c) (constant (F := Ideal) S_ .f32 0x00000000#32) reducesTo_S64x128_S_d0_1 h_S_ y)
      (Ideal.ofBits .f32 0x44800000#32))) (Ideal.ofBits .f32 0x46000000#32) = _
  rw [hsum]
  exact Cert.LossAlgebra.kernel_loss _ _

/-- The kernel's run, read: its result is the loss of its two arguments, which end unchanged. -/
theorem run : θ_run (defs (F := Ideal)) (onTc (τ := τ) (main (F := Ideal))) ⟨m, fun _ => 0, ρ⟩ fun r => ∀ c : Dev nD,
      r.2.mem ((c : Thread nD τ).loc main_v4) = (fun _ => loss (argX m c) (argY m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KFinal
end
-- ==== Proof.RefRun.lean ====
/-
  The reference program's run, written out as one straight line.

  The program computes, from two arrays X and Y of 8192 rows of 768 entries: the matrix of inner products
  of the rows of X with the rows of Y, scaled and shifted (the logits); the matrix of labels, +1 on the
  diagonal and -1 off it, built as 2·[row = column] - 1; their entrywise product; the log-sigmoid of each
  entry, in the stable form -(max(a, 0) + log(1 + exp(-|a|))) at a = -(label · logit); the sum of all
  entries, negated and divided by 8192.  Its two outlined functions (log-sigmoid, and the softplus that
  log-sigmoid calls) are unfolded at their call sites, so that the whole program is a list of 42 operations,
  each writing one buffer of its own.  Run in order from any launch memory, the list leaves in the result
  buffer the operations' composed term of the two argument arrays, and leaves the arguments as they were.
-/
import proofs.«161038_j57346403336666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, in named pieces -/

/-- A scalar f32 word spread over the whole 8192 × 8192 matrix. -/
def splat (w : BitVec 32) : (⟨S8192x8192, .f32⟩ : BufTy).Contents (Elt F) :=
  broadcastInDim S8192x8192 ![] bcast_S_S8192x8192 (constant (F := F) S_ .f32 w)

/-- The logits: the scale times the matrix of inner products, plus the shift. -/
def logits (X Y : (⟨S8192x768, .f32⟩ : BufTy).Contents (Elt F)) : (⟨S8192x8192, .f32⟩ : BufTy).Contents (Elt F) :=
  addf (mulf (splat 0x40135D8E#32) (Host.dotGeneral dot_S8192x768_S8192x768_S8192x8192_1_1_0_0_n_n none X Y))
    (splat 0xC1200000#32)

/-- The one-bit matrix "row index plus zero equals column index". -/
def onDiag : (⟨S8192x8192, .i1⟩ : BufTy).Contents (Elt F) :=
  cmpi .eq (addi (iotaInDim S8192x8192 32 0) (broadcastInDim S8192x8192 ![] bcast_S_S8192x8192 (constantI S_ 32 0#32)))
    (iotaInDim S8192x8192 32 1)

/-- The labels: twice the diagonal's indicator, minus one. -/
def labels : (⟨S8192x8192, .f32⟩ : BufTy).Contents (Elt F) :=
  subf (mulf (splat 0x40000000#32) (uitofp .f32 (onDiag (F := F)))) (splat 0x3F800000#32)

/-- The softplus of a matrix, as the outlined function computes it. -/
def softplus (a : (⟨S8192x8192, .f32⟩ : BufTy).Contents (Elt F)) : (⟨S8192x8192, .f32⟩ : BufTy).Contents (Elt F) :=
  select (cmpf .une (subf a (splat 0x00000000#32)) (subf a (splat 0x00000000#32)))
    (addf a (splat 0x00000000#32))
    (addf (maximumf a (splat 0x00000000#32))
      (Host.log1p (Host.exp (Host.negf (Host.absf (subf a (splat 0x00000000#32)))))))

/-- The log-sigmoid of a matrix: minus the softplus of its negation. -/
def logSigmoid (a : (⟨S8192x8192, .f32⟩ : BufTy).Contents (Elt F)) : (⟨S8192x8192, .f32⟩ : BufTy).Contents (Elt F) :=
  Host.negf (softplus (Host.negf a))

/-- The matrix of terms: the log-sigmoid of label times logit. -/
def terms (X Y : (⟨S8192x768, .f32⟩ : BufTy).Contents (Elt F)) : (⟨S8192x8192, .f32⟩ : BufTy).Contents (Elt F) :=
  logSigmoid (mulf labels (logits X Y))

/-- The program's result: the sum of all terms from zero, negated, divided by 8192. -/
def result (X Y : (⟨S8192x768, .f32⟩ : BufTy).Contents (Elt F)) : (⟨S_, .f32⟩ : BufTy).Contents (Elt F) :=
  Host.divf (Host.negf (Host.reduceAdd (terms X Y) (constant (F := F) S_ .f32 0x00000000#32) reducesTo_S8192x8192_S_d0_1 h_S_))
    (constant (F := F) S_ .f32 0x46000000#32)

/-! ## The operations -/

/-- The program's 42 operations in order, the two calls unfolded: twenty-one before the call, the negation
    that opens log-sigmoid, softplus's fourteen, the negation that closes log-sigmoid, and the last five. -/
abbrev ops : List (HloOp τ sig (Elt F)) :=
  [ binary main_arg0 main_arg1 main_v0 ((fun l r => Host.dotGeneral dot_S8192x768_S8192x768_S8192x8192_1_1_0_0_n_n none l r) : (⟨S8192x768, .f32⟩ : BufTy).Contents (Elt F) → (⟨S8192x768, .f32⟩ : BufTy).Contents (Elt F) → (⟨S8192x8192, .f32⟩ : BufTy).Contents (Elt F)),
    nullary main_cst (constant S_ .f32 0x40135D8E#32),
    unary main_cst main_v1 (broadcastInDim S8192x8192 ![] bcast_S_S8192x8192 : (⟨S_, .f32⟩ : BufTy).Contents (Elt F) → (⟨S8192x8192, .f32⟩ : BufTy).Contents (Elt F)),
    binary main_v1 main_v0 main_v2 (mulf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0xC1200000#32),
    unary main_cst_0 main_v3 (broadcastInDim S8192x8192 ![] bcast_S_S8192x8192 : (⟨S_, .f32⟩ : BufTy).Contents (Elt F) → (⟨S8192x8192, .f32⟩ : BufTy).Contents (Elt F)),
    binary main_v2 main_v3 main_v4 (addf : (⟨S8192x8192, .f32⟩ : BufTy).Contents (Elt F) → (⟨S8192x8192, .f32⟩ : BufTy).Contents (Elt F) → (⟨S8192x8192, .f32⟩ : BufTy).Contents (Elt F)),
    nullary main_v5 (iotaInDim S8192x8192 32 0),
    nullary main_v6 (iotaInDim S8192x8192 32 1),
    nullary main_c (constantI S_ 32 0#32),
    unary main_c main_v7 (broadcastInDim S8192x8192 ![] bcast_S_S8192x8192 : (⟨S_, .i32⟩ : BufTy).Contents (Elt F) → (⟨S8192x8192, .i32⟩ : BufTy).Contents (Elt F)),
    binary main_v5 main_v7 main_v8 (addi : (⟨S8192x8192, .i32⟩ : BufTy).Contents (Elt F) → (⟨S8192x8192, .i32⟩ : BufTy).Contents (Elt F) → (⟨S8192x8192, .i32⟩ : BufTy).Contents (Elt F)),
    binary main_v8 main_v6 main_v9 (cmpi .eq : (⟨S8192x8192, .i32⟩ : BufTy).Contents (Elt F) → (⟨S8192x8192, .i32⟩ : BufTy).Contents (Elt F) → (⟨S8192x8192, .i1⟩ : BufTy).Contents (Elt F)),
    unary main_v9 main_v10 (uitofp .f32 : (⟨S8192x8192, .i1⟩ : BufTy).Contents (Elt F) → (⟨S8192x8192, .f32⟩ : BufTy).Contents (Elt F)),
    nullary main_cst_1 (constant S_ .f32 0x40000000#32),
    unary main_cst_1 main_v11 (broadcastInDim S8192x8192 ![] bcast_S_S8192x8192 : (⟨S_, .f32⟩ : BufTy).Contents (Elt F) → (⟨S8192x8192, .f32⟩ : BufTy).Contents (Elt F)),
    binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x3F800000#32),
    unary main_cst_2 main_v13 (broadcastInDim S8192x8192 ![] bcast_S_S8192x8192 : (⟨S_, .f32⟩ : BufTy).Contents (Elt F) → (⟨S8192x8192, .f32⟩ : BufTy).Contents (Elt F)),
    binary main_v12 main_v13 main_v14 (subf : (⟨S8192x8192, .f32⟩ : BufTy).Contents (Elt F) → (⟨S8192x8192, .f32⟩ : BufTy).Contents (Elt F) → (⟨S8192x8192, .f32⟩ : BufTy).Contents (Elt F)),
    binary main_v14 main_v4 main_v15 (mulf : (⟨S8192x8192, .f32⟩ : BufTy).Contents (Elt F) → (⟨S8192x8192, .f32⟩ : BufTy).Contents (Elt F) → (⟨S8192x8192, .f32⟩ : BufTy).Contents (Elt F)),
    TRef.unary (.of main_v15 : TRef sig ⟨S8192x8192, .f32⟩) main_call0.v0 Host.negf,
    TRef.nullary main_call0.call0.cst (constant S_ .f32 0x00000000#32),
    TRef.unary main_call0.call0.cst main_call0.call0.v0 (broadcastInDim S8192x8192 ![] bcast_S_S8192x8192),
    TRef.binary main_call0.v0 main_call0.call0.v0 main_call0.call0.v1 maximumf,
    TRef.unary main_call0.call0.cst main_call0.call0.v2 (broadcastInDim S8192x8192 ![] bcast_S_S8192x8192),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S8192x8192 ![] bcast_S_S8192x8192),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    nullary main_cst_3 (constant S_ .f32 0x00000000#32),
    binary main_v16 main_cst_3 main_v17 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    unary main_v17 main_v18 (Host.negf : (⟨S_, .f32⟩ : BufTy).Contents (Elt F) → (⟨S_, .f32⟩ : BufTy).Contents (Elt F)),
    nullary main_cst_4 (constant S_ .f32 0x46000000#32),
    binary main_v18 main_cst_4 main_v19 (Host.divf : (⟨S_, .f32⟩ : BufTy).Contents (Elt F) → (⟨S_, .f32⟩ : BufTy).Contents (Elt F) → (⟨S_, .f32⟩ : BufTy).Contents (Elt F)) ]

set_option maxRecDepth 4096 in
/-- The program is that straight line: the two functions' definitions unfolded at their calls, and the
    sequencing reassociated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., binary_bufs_sub .., nullary_bufs_sub ..,
    unary_bufs_sub .., binary_bufs_sub .., binary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., nullary_bufs_sub .., binary_bufs_sub .., unary_bufs_sub .., nullary_bufs_sub .., binary_bufs_sub ..⟩

/-! ## What the buffers hold after the line -/

set_option maxRecDepth 8192 in
set_option maxHeartbeats 400000 in
/-- After the 42 operations the result buffer holds the composed term of the two argument buffers' contents:
    each operation's value is read at its own buffer and passed through at every other, and the typed
    references of the two functions' buffers carry their types by computation. -/
theorem result_eq (V : Valuation τ sig (Elt F)) :
    after ops V (main_v19 : DevRef τ sig)
      = result (V (main_arg0 : DevRef τ sig)) (V (main_arg1 : DevRef τ sig)) := by
  after_results_simp
  rfl

set_option maxRecDepth 8192 in
/-- No operation writes the first argument. -/
theorem arg0_eq (V : Valuation τ sig (Elt F)) :
    after ops V (main_arg0 : DevRef τ sig) = V (main_arg0 : DevRef τ sig) := by
  after_results_simp

set_option maxRecDepth 8192 in
/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution of
    the program terminates with the result buffer at the composed term of the arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (result_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference program's result is the loss.

  The composed term the run leaves in the result buffer is read one operation at a time at an index.  The
  matrix of inner products at (R, C) is the sum over the 768 columns of X(R, k) · Y(C, k); scaled and shifted
  it is the logit.  The label matrix 2·[R + 0 = C] - 1 is +1 on the diagonal and -1 off it: the row and column
  numbers are below 8192, so their 32-bit words are equal exactly when the numbers are.  The softplus of a is
  max(a, 0) + log(1 + exp(-|a|)): the outlined function subtracts and adds a zero, and guards with "a ≠ a",
  which no extended real satisfies, so its select always takes that branch.  With a = -v this is the stable
  form of -log σ(v), by commutativity of max and -(-v) = v.  The sum over both axes from zero is the double sum
  over rows and columns.  No step needs a finite input: x - 0 = x, x + 0 = x, 0 + x = x, -(-x) = x and the
  commutativity of max and of the product hold on every extended real.
-/
import proofs.«161038_j57346403336666_1_alg».proof.Proof.RefRun
import proofs.«161038_j57346403336666_1_alg».proof.Proof.LossSpec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.RefRun Cert.LossSpec
open Idealize.ShloMosaic Idealize.ShloMosaic.TcCoe Idealize.SL.Sem Idealize.ShloMosaic.ValueIdx

/-! ## The constants -/

/-- The pattern of 2.0 denotes the real 2. -/
theorem ofBits_two : Ideal.ofBits .f32 0x40000000#32 = ((2 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- A splat reads its word's value everywhere. -/
theorem splat_apply (w : BitVec 32) (i : S8192x8192.Idx) : splat (F := Ideal) w i = Ideal.ofBits .f32 w := rfl

/-! ## The inner products -/

/-- The left operand is read at the output's row … -/
theorem lhs_0 (i : S8192x8192.Idx) (q : dot_S8192x768_S8192x768_S8192x8192_1_1_0_0_n_n.contr.Idx) :
    (dot_S8192x768_S8192x768_S8192x8192_1_1_0_0_n_n.lhsIdx i q 0).val = (i 0).val := by
  unfold DotDims.lhsIdx
  rw [dif_neg (show ¬(0 : Fin S8192x768.rank) ∈ dot_S8192x768_S8192x768_S8192x8192_1_1_0_0_n_n.lhsBatch by decide),
    dif_pos (show (0 : Fin S8192x768.rank) ∈ dot_S8192x768_S8192x768_S8192x8192_1_1_0_0_n_n.lhsNonContracting by decide)]
  rfl
/-- … and the contraction's position; … -/
theorem lhs_1 (i : S8192x8192.Idx) (q : dot_S8192x768_S8192x768_S8192x8192_1_1_0_0_n_n.contr.Idx) :
    (dot_S8192x768_S8192x768_S8192x8192_1_1_0_0_n_n.lhsIdx i q 1).val = (q ⟨0, by decide⟩).val :=
  dot_S8192x768_S8192x768_S8192x8192_1_1_0_0_n_n.lhsIdx_val_of_single rfl i q
/-- … the right operand at the output's column … -/
theorem rhs_0 (i : S8192x8192.Idx) (q : dot_S8192x768_S8192x768_S8192x8192_1_1_0_0_n_n.contr.Idx) :
    (dot_S8192x768_S8192x768_S8192x8192_1_1_0_0_n_n.rhsIdx i q 0).val = (i 1).val := by
  unfold DotDims.rhsIdx
  rw [dif_neg (show ¬(0 : Fin S8192x768.rank) ∈ dot_S8192x768_S8192x768_S8192x8192_1_1_0_0_n_n.rhsBatch by decide),
    dif_pos (show (0 : Fin S8192x768.rank) ∈ dot_S8192x768_S8192x768_S8192x8192_1_1_0_0_n_n.rhsNonContracting by decide)]
  rfl
/-- … and the contraction's position. -/
theorem rhs_1 (i : S8192x8192.Idx) (q : dot_S8192x768_S8192x768_S8192x8192_1_1_0_0_n_n.contr.Idx) :
    (dot_S8192x768_S8192x768_S8192x8192_1_1_0_0_n_n.rhsIdx i q 1).val = (q ⟨0, by decide⟩).val :=
  dot_S8192x768_S8192x768_S8192x8192_1_1_0_0_n_n.rhsIdx_val_of_single rfl i q

/-- The matrix product at (R, C) is the inner product of row R of X with row C of Y. -/
theorem dot_apply (X Y : FVec Ideal S8192x768 .f32) (R C : Fin 8192) :
    Host.dotGeneral dot_S8192x768_S8192x768_S8192x8192_1_1_0_0_n_n none X Y (ix2 R C) = LossSpec.inner X Y R C := by
  unfold LossSpec.inner
  simp only [Host.dotGeneral]
  rw [Ideal.dotGeneral_apply, ← Equiv.sum_comp (contrEquiv1 dot_S8192x768_S8192x768_S8192x8192_1_1_0_0_n_n 768 rfl rfl).symm]
  refine Finset.sum_congr rfl fun k _ => ?_
  have hk := contrEquiv1_symm_val dot_S8192x768_S8192x768_S8192x8192_1_1_0_0_n_n 768 rfl rfl k
  have el : dot_S8192x768_S8192x768_S8192x8192_1_1_0_0_n_n.lhsIdx (ix2 R C) ((contrEquiv1 dot_S8192x768_S8192x768_S8192x8192_1_1_0_0_n_n 768 rfl rfl).symm k) = ix2 R k :=
    funext fun a => Fin.ext (by
      match a with
      | ⟨0, _⟩ => exact lhs_0 _ _
      | ⟨1, _⟩ => exact (lhs_1 _ _).trans hk)
  have er : dot_S8192x768_S8192x768_S8192x8192_1_1_0_0_n_n.rhsIdx (ix2 R C) ((contrEquiv1 dot_S8192x768_S8192x768_S8192x8192_1_1_0_0_n_n 768 rfl rfl).symm k) = ix2 C k :=
    funext fun a => Fin.ext (by
      match a with
      | ⟨0, _⟩ => exact rhs_0 _ _
      | ⟨1, _⟩ => exact (rhs_1 _ _).trans hk)
  rw [el, er]

/-- The logits at (R, C). -/
theorem logits_apply (X Y : FVec Ideal S8192x768 .f32) (R C : Fin 8192) :
    logits (F := Ideal) X Y (ix2 R C) = logit X Y R C := by
  have h : (logits (F := Ideal) X Y (ix2 R C) : EReal)
      = Ideal.ofBits .f32 0x40135D8E#32 * Host.dotGeneral dot_S8192x768_S8192x768_S8192x8192_1_1_0_0_n_n none X Y (ix2 R C)
        + Ideal.ofBits .f32 0xC1200000#32 := rfl
  rw [h, dot_apply, mul_comm]
  rfl

/-! ## The labels -/

/-- Row and column numbers below 8192 have equal 32-bit words exactly when they are equal. -/
theorem onDiag_apply (R C : Fin 8192) :
    onDiag (F := Ideal) (ix2 R C) = if R.val = C.val then 1#1 else 0#1 := by
  have h : onDiag (F := Ideal) (ix2 R C)
      = IntOp.cmpi .eq (IntOp.addi (BitVec.ofNat 32 R.val) 0#32) (BitVec.ofNat 32 C.val) := rfl
  have h' : IntOp.cmpi .eq (IntOp.addi (BitVec.ofNat 32 R.val) 0#32) (BitVec.ofNat 32 C.val)
      = BitVec.ofBool ((BitVec.ofNat 32 R.val + 0#32) == BitVec.ofNat 32 C.val) := rfl
  rw [h, h', BitVec.add_zero]
  have hR := R.isLt
  have hC := C.isLt
  by_cases e : R.val = C.val
  · rw [if_pos e, e, beq_self_eq_true]; rfl
  · have ne : ¬ (BitVec.ofNat 32 R.val = BitVec.ofNat 32 C.val) := by
      intro hh
      have := congrArg BitVec.toNat hh
      simp only [BitVec.toNat_ofNat] at this
      omega
    rw [if_neg e, beq_false_of_ne ne]; rfl

/-- Twice one, less one, is one … -/
theorem two_mul_one_sub_one : ((2 : ℝ) : EReal) * (((1#1 : BitVec 1).toNat : ℝ) : EReal) - 1 = 1 := by
  have e : (((1#1 : BitVec 1).toNat : ℝ)) = 1 := by norm_num
  rw [e, ← EReal.coe_one, ← EReal.coe_mul, ← EReal.coe_sub]; norm_num
/-- … and twice zero, less one, is minus one. -/
theorem two_mul_zero_sub_one : ((2 : ℝ) : EReal) * (((0#1 : BitVec 1).toNat : ℝ) : EReal) - 1 = -1 := by
  have e : (((0#1 : BitVec 1).toNat : ℝ)) = 0 := by norm_num
  rw [e, EReal.coe_zero, mul_zero, zero_sub]

/-- The labels at (R, C): +1 on the diagonal, -1 off it. -/
theorem labels_apply (R C : Fin 8192) : labels (F := Ideal) (ix2 R C) = label R C := by
  have h : (labels (F := Ideal) (ix2 R C) : EReal)
      = Ideal.ofBits .f32 0x40000000#32 * (((onDiag (F := Ideal) (ix2 R C)).toNat : ℝ) : EReal)
        - Ideal.ofBits .f32 0x3F800000#32 := rfl
  rw [h, onDiag_apply, ofBits_two, ofBits_one]
  unfold label
  by_cases e : R.val = C.val
  · rw [if_pos e, if_pos e]
    exact two_mul_one_sub_one
  · rw [if_neg e, if_neg e]
    exact two_mul_zero_sub_one

/-! ## The log-sigmoid -/

/-- No extended real differs from itself. -/
theorem cmp_une_self (x : EReal) : Ideal.cmp .une x x = 0#1 := by
  simp [Ideal.cmp]

/-- The softplus at an index. -/
theorem softplus_apply (a : FVec Ideal S8192x8192 .f32) (i : S8192x8192.Idx) :
    (softplus (F := Ideal) a i : EReal) = max (a i) 0 + Ideal.log1p (Ideal.exp (-(max (a i) (-(a i))))) := by
  have h : (softplus (F := Ideal) a i : EReal)
      = Scalar.select (Ideal.cmp .une (a i - Ideal.ofBits .f32 0x00000000#32) (a i - Ideal.ofBits .f32 0x00000000#32))
          (a i + Ideal.ofBits .f32 0x00000000#32)
          (max (a i) (Ideal.ofBits .f32 0x00000000#32)
            + Ideal.log1p (Ideal.exp (-(max (a i - Ideal.ofBits .f32 0x00000000#32) (-(a i - Ideal.ofBits .f32 0x00000000#32)))))) := rfl
  rw [h, cmp_une_self, select_zero, Ideal.ofBits_zero_f32, sub_zero]

/-- The matrix of terms at (R, C) is the pair's term. -/
theorem terms_apply (X Y : FVec Ideal S8192x768 .f32) (R C : Fin 8192) :
    terms (F := Ideal) X Y (ix2 R C) = pairTerm X Y R C := by
  have h : (terms (F := Ideal) X Y (ix2 R C) : EReal)
      = -(softplus (F := Ideal) (Host.negf (F := Ideal) (mulf (labels (F := Ideal)) (logits (F := Ideal) X Y))) (ix2 R C) : EReal) := rfl
  have hv : ((Host.negf (F := Ideal) (mulf (labels (F := Ideal)) (logits (F := Ideal) X Y)) : FVec Ideal S8192x8192 .f32) (ix2 R C) : EReal)
      = -(label R C * logit X Y R C) := by
    have h' : ((Host.negf (F := Ideal) (mulf (labels (F := Ideal)) (logits (F := Ideal) X Y)) : FVec Ideal S8192x8192 .f32) (ix2 R C) : EReal)
        = -((labels (F := Ideal) (ix2 R C) : EReal) * (logits (F := Ideal) X Y (ix2 R C) : EReal)) := rfl
    rw [h', labels_apply, logits_apply]
  rw [h, softplus_apply, hv]
  unfold pairTerm logsig
  rw [neg_neg, max_comm (-(label R C * logit X Y R C)) 0, max_comm (-(label R C * logit X Y R C)) (label R C * logit X Y R C)]

/-! ## The result -/

/-- The composed term is the loss, at its one index. -/
theorem result_eq_loss (X Y : FVec Ideal S8192x768 .f32) :
    result (F := Ideal) X Y = fun _ => loss X Y := by
  funext j
  have h : (result (F := Ideal) X Y j : EReal)
      = Ideal.div (-(Ideal.hostReduceAdd reducesTo_S8192x8192_S_d0_1 (terms (F := Ideal) X Y) (Ideal.ofBits .f32 0x00000000#32) j))
          (Ideal.ofBits .f32 0x46000000#32) := rfl
  rw [h, Ideal.hostReduceAdd_total reducesTo_S8192x8192_S_d0_1 (fun b => b.elim0), Ideal.ofBits_zero_f32, zero_add, sum_idx2]
  unfold loss total
  refine congrArg (fun t => Ideal.div (-t) _) ?_
  exact Finset.sum_congr rfl fun R _ => Finset.sum_congr rfl fun C _ => terms_apply X Y R C

/-- On every device, from any memory with zero counters: every weakly fair execution of the reference terminates
    with the loss of the two argument arrays in its result buffer, and the arguments unchanged. -/
theorem run_loss (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v19)
            = (fun _ => Cert.LossSpec.loss (m ((c.tc : Thread _ _).loc Cert.ReferenceIdeal.main_arg0)) (m ((c.tc : Thread _ _).loc Cert.ReferenceIdeal.main_arg1)))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun _ h c => ⟨(h c).1.trans (result_eq_loss _ _), (h c).2⟩)
    (RefRun.run (F := Ideal) m ρ)

end Cert.ReferenceIdeal.RefValue

end
-- ==== Proof.lean ====
/-
  The certificate's claims.

  The kernel and its reference compute one number from two arrays X, Y of 8192 rows: minus the sum, over all
  pairs (R, C), of log σ(label(R, C) · (scale · ⟨X_R, Y_C⟩ + shift)), divided by 8192.  The reference sums the
  8192 × 8192 terms in one reduction.  The kernel sums them tile by tile (1024 × 1024), adds the eight tile sums
  of a row of tiles in a carried number, writes 1024 copies of each row's sum, and the host lines after it add
  up all the copies and divide by 1024.  On the extended reals the two arrangements are equal without any
  hypothesis on the inputs: a finite sum in a commutative monoid may be regrouped freely, and 1024 copies of a
  number, summed and divided by 1024, give the number back, infinities included.  The three frames are the
  generated frame runs (the reference's being its run with the result dropped), and the idealization rewrote
  nothing.
-/
import proofs.«161038_j57346403336666_1_alg».proof.Defs
import proofs.«161038_j57346403336666_1_alg».proof.Proof.Gen.Kernel
import proofs.«161038_j57346403336666_1_alg».proof.Proof.Gen.Kernel.Frame
import proofs.«161038_j57346403336666_1_alg».proof.Proof.Gen.KernelIdeal
import proofs.«161038_j57346403336666_1_alg».proof.Proof.Gen.KernelIdeal.Frame
import proofs.«161038_j57346403336666_1_alg».proof.Proof.Gen.ReferenceIdeal
import proofs.«161038_j57346403336666_1_alg».proof.Proof.Gen.Pre_finite_inputs
import proofs.«161038_j57346403336666_1_alg».proof.Proof.KFinal
import proofs.«161038_j57346403336666_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run_loss m ρ)

theorem preserves : Cert.preserves_Kernel_KernelIdeal := trivial

/-- Both programs end with the loss of their arguments, and the arguments agree. -/
theorem algebraic : Cert.algebraic_KernelIdeal_ReferenceIdeal := by
  intro m ρ m' ρ' _ hagree
  refine ⟨_, Cert.KernelIdeal.KFinal.run m ρ, ?_⟩
  refine (θ_run Cert.ReferenceIdeal.defs _ _).mono (fun _ h c => ⟨(h c).1.trans ?_, (h c).2⟩)
    (Cert.ReferenceIdeal.RefValue.run_loss m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
